-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.truncf_extf.Statement Cert.KernelIdeal.S64x256 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x128 : Shape := ⟨2, ![2048, 128]⟩
abbrev S32768x256 : Shape := ⟨2, ![32768, 256]⟩
abbrev S32768 : Shape := ⟨1, ![32768]⟩
abbrev S256x128 : Shape := ⟨2, ![256, 128]⟩
abbrev S_ : Shape := ⟨0, ![]⟩

class Facts : Prop where
  bcast_S_S2048x128 : S_.BroadcastsInDim S2048x128 (![] : Fin 0 → Fin S2048x128.rank)
  reducesTo_S2048x128_S_d0_1 : S2048x128.ReducesTo [0, 1] S_
  h_S_ : 0 < S_.numel
  bcast_S_S32768x256 : S_.BroadcastsInDim S32768x256 (![] : Fin 0 → Fin S32768x256.rank)
  reducesTo_S32768x256_S_d0_1 : S32768x256.ReducesTo [0, 1] S_
  bcast_S_S32768 : S_.BroadcastsInDim S32768 (![] : Fin 0 → Fin S32768.rank)
  reducesTo_S32768_S_d0 : S32768.ReducesTo [0] S_
  bcast_S_S256x128 : S_.BroadcastsInDim S256x128 (![] : Fin 0 → Fin S256x128.rank)
  reducesTo_S256x128_S_d0_1 : S256x128.ReducesTo [0, 1] S_

variable [Facts]

def fn_part1 {F : FTy → Type} [FloatOps F] (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  main_v18

def fn {F : FTy → Type} [FloatOps F] (main_arg0 : FVec F S2048x128 .f32) (main_arg1 : FVec F S32768x256 .f32) (main_arg2 : FVec F S32768 .f32) (main_arg3 : FVec F S256x128 .f32) : IVec S_ 1 :=
  let main_v0 : FVec F S2048x128 .f32 := Host.absf main_arg0
  let main_cst : FVec F S_ .f32 := constant S_ .f32 0x7F800000#32
  let main_v1 : FVec F S2048x128 .f32 := broadcastInDim S2048x128 ![] bcast_S_S2048x128 main_cst
  let main_v2 : IVec S2048x128 1 := cmpf .olt main_v0 main_v1
  let main_c : IVec S_ 1 := constantI S_ 1 1#1
  let main_v3 : IVec S_ 1 := (fun x v => Host.reduce IntOp.andi x v reducesTo_S2048x128_S_d0_1 h_S_) main_v2 main_c
  let main_v4 : FVec F S32768x256 .f32 := Host.absf main_arg1
  let main_cst_0 : FVec F S_ .f32 := constant S_ .f32 0x7F800000#32
  let main_v5 : FVec F S32768x256 .f32 := broadcastInDim S32768x256 ![] bcast_S_S32768x256 main_cst_0
  let main_v6 : IVec S32768x256 1 := cmpf .olt main_v4 main_v5
  let main_c_1 : IVec S_ 1 := constantI S_ 1 1#1
  let main_v7 : IVec S_ 1 := (fun x v => Host.reduce IntOp.andi x v reducesTo_S32768x256_S_d0_1 h_S_) main_v6 main_c_1
  let main_v8 : IVec S_ 1 := andi main_v3 main_v7
  let main_v9 : FVec F S32768 .f32 := Host.absf main_arg2
  let main_cst_2 : FVec F S_ .f32 := constant S_ .f32 0x7F800000#32
  let main_v10 : FVec F S32768 .f32 := broadcastInDim S32768 ![] bcast_S_S32768 main_cst_2
  let main_v11 : IVec S32768 1 := cmpf .olt main_v9 main_v10
  let main_c_3 : IVec S_ 1 := constantI S_ 1 1#1
  let main_v12 : IVec S_ 1 := (fun x v => Host.reduce IntOp.andi x v reducesTo_S32768_S_d0 h_S_) main_v11 main_c_3
  let main_v13 : IVec S_ 1 := andi main_v8 main_v12
  let main_v14 : FVec F S256x128 .f32 := Host.absf main_arg3
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_v13 main_v16
-- ==== Kernel.lean ====
abbrev S2048x128 : Shape := ⟨2, ![2048, 128]⟩
abbrev S32768x256 : Shape := ⟨2, ![32768, 256]⟩
abbrev S32768 : Shape := ⟨1, ![32768]⟩
abbrev S256x128 : Shape := ⟨2, ![256, 128]⟩
abbrev S2048x256 : Shape := ⟨2, ![2048, 256]⟩
abbrev S_ : Shape := ⟨0, ![]⟩
abbrev S1x32768 : Shape := ⟨2, ![1, 32768]⟩
abbrev S2048x32768 : Shape := ⟨2, ![2048, 32768]⟩
abbrev S64x256 : Shape := ⟨2, ![64, 256]⟩
abbrev S64x32768 : Shape := ⟨2, ![64, 32768]⟩
abbrev S64 : Shape := ⟨1, ![64]⟩
abbrev S64x1 : Shape := ⟨2, ![64, 1]⟩

abbrev nBuf : Space → Nat
  | .hbm => 11
  | .vmem => 6
  | .smem => 0
  | _ => 0

abbrev bufTy : (tb : Table) → Fin (tcTables nBuf tb) → BufTy
  | .hbm, ⟨0, _⟩ => ⟨S2048x128, .f32⟩
  | .hbm, ⟨1, _⟩ => ⟨S32768x256, .f32⟩
  | .hbm, ⟨2, _⟩ => ⟨S32768, .f32⟩
  | .hbm, ⟨3, _⟩ => ⟨S256x128, .f32⟩
  | .hbm, ⟨4, _⟩ => ⟨S2048x256, .f32⟩
  | .hbm, ⟨5, _⟩ => ⟨S32768x256, .bf16⟩
  | .hbm, ⟨6, _⟩ => ⟨S_, .f32⟩
  | .hbm, ⟨7, _⟩ => ⟨S32768, .f32⟩
  | .hbm, ⟨8, _⟩ => ⟨S32768, .f32⟩
  | .hbm, ⟨9, _⟩ => ⟨S1x32768, .f32⟩
  | .hbm, ⟨10, _⟩ => ⟨S2048x32768, .f32⟩
  | .local _ .vmem, ⟨0, _⟩ => ⟨S64x256, .f32⟩
  | .local _ .vmem, ⟨1, _⟩ => ⟨S64x256, .f32⟩
  | .local _ .vmem, ⟨2, _⟩ => ⟨S32768x256, .bf16⟩
  | .local _ .vmem, ⟨3, _⟩ => ⟨S1x32768, .f32⟩
  | .local _ .vmem, ⟨4, _⟩ => ⟨S64x32768, .f32⟩
  | .local _ .vmem, ⟨5, _⟩ => ⟨S64x32768, .f32⟩
  | _, _ => ⟨S2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v0 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32768x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S64x32768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bitsLt_bf16_f32 : FTy.bits .bf16 < FTy.bits .f32
  bcast_S_S32768 : S_.BroadcastsInDim S32768 (![] : Fin 0 → Fin S32768.rank)
  shapeCasts_S32768_S1x32768 : S32768.ShapeCasts S1x32768
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S32768x256_S32768x256_0_0 : ∀ a, (![0, 0] : Fin 2 → Nat) a + S32768x256.size a ≤ S32768x256.size a
  h_S32768x256 : 0 < S32768x256.numel
  shapeCasts_S32768x256_S32768x256 : S32768x256.ShapeCasts S32768x256
  inb_S1x32768_S1x32768_0_0 : ∀ a, (![0, 0] : Fin 2 → Nat) a + S1x32768.size a ≤ S1x32768.size a
  h_S1x32768 : 0 < S1x32768.numel
  shapeCasts_S1x32768_S1x32768 : S1x32768.ShapeCasts S1x32768
  broadcasts_S1x32768_S64x32768 : S1x32768.Broadcasts S64x32768
  reduces_S64x32768_S64 : S64x32768.Reduces [1] S64
  shapeCasts_S64_S64x1 : S64.ShapeCasts S64x1
  broadcasts_S64x1_S64x32768 : S64x1.Broadcasts S64x32768
  inb_S64x32768_S64x32768_0_0 : ∀ a, (![0, 0] : Fin 2 → Nat) a + S64x32768.size a ≤ S64x32768.size a
  h_S64x32768 : 0 < S64x32768.numel
  dot_S2048x128_S256x128_S2048x256_1_1_0_0_n_n_wf : DotDims.WF S2048x128 S256x128 S2048x256 [1] [1] [0] [0] [] []
  dot_S64x256_S32768x256_S64x32768_1_1_0_0_n_n_wf : DotDims.WF S64x256 S32768x256 S64x32768 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x256.size a ≤ S2048x256.size a
  hwx0_0 : ∀ i : grid0.Coords, EltTy.bits .f32 = 32 ∨ (Rect.block (s := S2048x256) S64x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32768x256.size a ≤ S32768x256.size a
  hwx0_1 : ∀ i : grid0.Coords, EltTy.bits .bf16 = 32 ∨ (Rect.block (s := S32768x256) S32768x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32768.size a ≤ S1x32768.size a
  hwx0_2 : ∀ i : grid0.Coords, EltTy.bits .f32 = 32 ∨ (Rect.block (s := S1x32768) S1x32768.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x32768.size a ≤ S2048x32768.size a
  hwx0_3 : ∀ i : grid0.Coords, EltTy.bits .f32 = 32 ∨ (Rect.block (s := S2048x32768) S64x32768.size (cc0_transform_3 i) (hinb0_3 i)).WholeWords (EltTy.packing .f32)

variable [Facts₀]

def dot_S2048x128_S256x128_S2048x256_1_1_0_0_n_n : DotDims S2048x128 S256x128 S2048x256 where
  lhsContracting := [1]
  rhsContracting := [1]
  lhsNonContracting := [0]
  rhsNonContracting := [0]
  lhsBatch := []
  rhsBatch := []
  wf := dot_S2048x128_S256x128_S2048x256_1_1_0_0_n_n_wf
def dot_S64x256_S32768x256_S64x32768_1_1_0_0_n_n : DotDims S64x256 S32768x256 S64x32768 where
  lhsContracting := [1]
  rhsContracting := [1]
  lhsNonContracting := [0]
  rhsNonContracting := [0]
  lhsBatch := []
  rhsBatch := []
  wf := dot_S64x256_S32768x256_S64x32768_1_1_0_0_n_n_wf

abbrev win0_0 : Pipeline.Window sig grid0 :=
  Pipeline.Window.ofSpec (Memref.whole main_call0_v0) S64x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v1) S32768x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v4) S1x32768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S64x32768.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2048x128 : Shape := ⟨2, ![2048, 128]⟩
abbrev S32768x256 : Shape := ⟨2, ![32768, 256]⟩
abbrev S32768 : Shape := ⟨1, ![32768]⟩
abbrev S256x128 : Shape := ⟨2, ![256, 128]⟩
abbrev S2048x256 : Shape := ⟨2, ![2048, 256]⟩
abbrev S2048x32768 : Shape := ⟨2, ![2048, 32768]⟩
abbrev S_ : Shape := ⟨0, ![]⟩
abbrev S1x32768 : Shape := ⟨2, ![1, 32768]⟩
abbrev S2048 : Shape := ⟨1, ![2048]⟩
abbrev S2048x1 : Shape := ⟨2, ![2048, 1]⟩

abbrev nBuf : Space → Nat
  | .hbm => 26
  | .vmem => 0
  | .smem => 0
  | _ => 0

abbrev bufTy : (tb : Table) → Fin (tcTables nBuf tb) → BufTy
  | .hbm, ⟨0, _⟩ => ⟨S2048x128, .f32⟩
  | .hbm, ⟨1, _⟩ => ⟨S32768x256, .f32⟩
  | .hbm, ⟨2, _⟩ => ⟨S32768, .f32⟩
  | .hbm, ⟨3, _⟩ => ⟨S256x128, .f32⟩
  | .hbm, ⟨4, _⟩ => ⟨S2048x256, .f32⟩
  | .hbm, ⟨5, _⟩ => ⟨S2048x32768, .f32⟩
  | .hbm, ⟨6, _⟩ => ⟨S_, .f32⟩
  | .hbm, ⟨7, _⟩ => ⟨S32768, .f32⟩
  | .hbm, ⟨8, _⟩ => ⟨S32768, .f32⟩
  | .hbm, ⟨9, _⟩ => ⟨S1x32768, .f32⟩
  | .hbm, ⟨10, _⟩ => ⟨S2048x32768, .f32⟩
  | .hbm, ⟨11, _⟩ => ⟨S2048x32768, .f32⟩
  | .hbm, ⟨12, _⟩ => ⟨S_, .f32⟩
  | .hbm, ⟨13, _⟩ => ⟨S2048, .f32⟩
  | .hbm, ⟨14, _⟩ => ⟨S_, .f32⟩
  | .hbm, ⟨15, _⟩ => ⟨S2048, .f32⟩
  | .hbm, ⟨16, _⟩ => ⟨S2048, .f32⟩
  | .hbm, ⟨17, _⟩ => ⟨S2048x1, .f32⟩
  | .hbm, ⟨18, _⟩ => ⟨S2048x32768, .f32⟩
  | .hbm, ⟨19, _⟩ => ⟨S2048x32768, .f32⟩
  | .hbm, ⟨20, _⟩ => ⟨S2048x32768, .f32⟩
  | .hbm, ⟨21, _⟩ => ⟨S_, .f32⟩
  | .hbm, ⟨22, _⟩ => ⟨S2048, .f32⟩
  | .hbm, ⟨23, _⟩ => ⟨S2048x1, .f32⟩
  | .hbm, ⟨24, _⟩ => ⟨S2048x32768, .f32⟩
  | .hbm, ⟨25, _⟩ => ⟨S2048x32768, .f32⟩
  | _, _ => ⟨S2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]

class Facts₀ : Prop where
  bcast_S_S32768 : S_.BroadcastsInDim S32768 (![] : Fin 0 → Fin S32768.rank)
  bcast_S32768_S1x32768_1 : S32768.BroadcastsInDim S1x32768 (![1] : Fin 1 → Fin S1x32768.rank)
  bcast_S1x32768_S2048x32768_0_1 : S1x32768.BroadcastsInDim S2048x32768 (![0, 1] : Fin 2 → Fin S2048x32768.rank)
  reducesTo_S2048x32768_S2048_d1 : S2048x32768.ReducesTo [1] S2048
  h_S_ : 0 < S_.numel
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x32768_0_1 : S2048x1.BroadcastsInDim S2048x32768 (![0, 1] : Fin 2 → Fin S2048x32768.rank)
  dot_S2048x128_S256x128_S2048x256_1_1_0_0_n_n_wf : DotDims.WF S2048x128 S256x128 S2048x256 [1] [1] [0] [0] [] []
  dot_S2048x256_S32768x256_S2048x32768_1_1_0_0_n_n_wf : DotDims.WF S2048x256 S32768x256 S2048x32768 [1] [1] [0] [0] [] []

variable [Facts₀]

def dot_S2048x128_S256x128_S2048x256_1_1_0_0_n_n : DotDims S2048x128 S256x128 S2048x256 where
  lhsContracting := [1]
  rhsContracting := [1]
  lhsNonContracting := [0]
  rhsNonContracting := [0]
  lhsBatch := []
  rhsBatch := []
  wf := dot_S2048x128_S256x128_S2048x256_1_1_0_0_n_n_wf
def dot_S2048x256_S32768x256_S2048x32768_1_1_0_0_n_n : DotDims S2048x256 S32768x256 S2048x32768 where
  lhsContracting := [1]
  rhsContracting := [1]
  lhsNonContracting := [0]
  rhsNonContracting := [0]
  lhsBatch := []
  rhsBatch := []
  wf := dot_S2048x256_S32768x256_S2048x32768_1_1_0_0_n_n_wf

class Facts : Prop extends Facts₀ where

variable [Facts]
-- ==== Proof.Softmax.lean ====
/-
  The mathematics both programs compute, stated once over plain index types, with no program in sight.

  Inputs: a query matrix `q` (2048 × 128), a key matrix `k` (32768 × 256), key norms `n` (32768) and a sketch
  matrix `s` (256 × 128), all extended reals. The projected query is `p b m = ∑ d, q b d · s m d`; the score of
  query row `b` against key `j` is `(c · n j) · ∑ m, p b m · k j m` for a fixed scale `c`; the result is the
  softmax of each row of scores: `exp (score − rowmax) / ∑ exp (score − rowmax)`, the row maximum taken as a fold of
  `max` from a bottom value `lo`.

  Also here: the two small laws that join the two programs. One program adds to `∑ m, x m · k m` a second pass over
  the residual `x m − x m`; on REAL entries the residual is zero and the second pass vanishes (on an infinite entry it
  would not: `∞ − ∞` is not zero in the extended reals, which is why realness of the projected query is needed). The
  other program takes `max lo` of a fold of `max` that already starts at `lo`, which changes nothing.
-/
import Idealize.ShloMosaic.PureOps.Ideal
import Idealize.ShloMosaic.Lib.ValueIdx
import Mathlib.Data.Finset.Fold

noncomputable section

open scoped BigOperators
open Idealize.ShloMosaic Idealize.ShloMosaic.ValueIdx

namespace Cert.KeyScores

/-! ## Extended reals that are real numbers -/

/-- `x` is (the image of) a real number: neither infinity. -/
def IsReal (x : EReal) : Prop := ∃ a : ℝ, x = (a : EReal)

/-- A real number minus itself is zero (false at the infinities). -/
theorem IsReal.sub_self {x : EReal} (h : IsReal x) : x - x = 0 := by
  obtain ⟨a, rfl⟩ := h
  rw [← EReal.coe_sub, _root_.sub_self, EReal.coe_zero]

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem isReal_zero : IsReal 0 := ⟨0, EReal.coe_zero.symm⟩

/-- A finite sum of real numbers is a real number. -/
theorem isReal_sum {ι : Type} (t : Finset ι) (f : ι → EReal) (h : ∀ i ∈ t, IsReal (f i)) : IsReal (∑ i ∈ t, f i) :=
  Finset.sum_induction f IsReal (fun _ _ ha hb => ha.add hb) isReal_zero h

/-- An extended real strictly between the infinities in absolute value, `max x (−x) < ⊤`, is a real number. -/
theorem isReal_of_abs_lt_top {x : EReal} (h : max x (-x) < ⊤) : IsReal x := by
  induction x using EReal.rec with
  | bot => exact absurd h (by simp)
  | top => exact absurd h (by simp)
  | coe a => exact ⟨a, rfl⟩

/-! ## The function -/

/-- The softmax of one row `sc` of 32768 scores, at column `j`: the exponential of the score less the row's maximum,
    over the sum of those exponentials along the row. The maximum is the fold of `max` from `lo`. -/
def rowSoftmax (lo : EReal) (sc : Fin 32768 → EReal) (j : Fin 32768) : EReal :=
  Ideal.div (Ideal.exp (sc j - Finset.univ.fold max lo sc))
    (∑ j' : Fin 32768, Ideal.exp (sc j' - Finset.univ.fold max lo sc))

/-- The projected query: row `b` of the query against row `m` of the sketch. -/
def proj (q : (⟨2, ![2048, 128]⟩ : Shape).Idx → EReal) (s : (⟨2, ![256, 128]⟩ : Shape).Idx → EReal)
    (b : Fin 2048) (m : Fin 256) : EReal :=
  ∑ d : Fin 128, q (ix2 b d) * s (ix2 m d)

/-- The score of query row `b` against key `j`: the scaled norm of the key times the inner product of the projected
    query with the key. -/
def score (c : EReal) (q : (⟨2, ![2048, 128]⟩ : Shape).Idx → EReal) (k : (⟨2, ![32768, 256]⟩ : Shape).Idx → EReal)
    (n : (⟨1, ![32768]⟩ : Shape).Idx → EReal) (s : (⟨2, ![256, 128]⟩ : Shape).Idx → EReal)
    (b : Fin 2048) (j : Fin 32768) : EReal :=
  (c * n (ix1 j)) * ∑ m : Fin 256, proj q s b m * k (ix2 j m)

/-- The whole result: entry `(b, j)` is the softmax over `j` of row `b`'s scores. -/
def attn (c lo : EReal) (q : (⟨2, ![2048, 128]⟩ : Shape).Idx → EReal) (k : (⟨2, ![32768, 256]⟩ : Shape).Idx → EReal)
    (n : (⟨1, ![32768]⟩ : Shape).Idx → EReal) (s : (⟨2, ![256, 128]⟩ : Shape).Idx → EReal) :
    (⟨2, ![2048, 32768]⟩ : Shape).Idx → EReal :=
  fun i => rowSoftmax lo (score c q k n s (i 0)) (i 1)

/-! ## The two laws -/

/-- The projected query of real inputs is real. -/
theorem proj_isReal (q : (⟨2, ![2048, 128]⟩ : Shape).Idx → EReal) (s : (⟨2, ![256, 128]⟩ : Shape).Idx → EReal)
    (hq : ∀ i, IsReal (q i)) (hs : ∀ i, IsReal (s i)) (b : Fin 2048) (m : Fin 256) : IsReal (proj q s b m) :=
  isReal_sum _ _ fun d _ => (hq _).mul (hs _)

/-- A product sum over `x` plus a second pass over the residual `x − x`, scaled by `w` on the right, is `w` times the
    single product sum when `x` is real: the residual pass is a sum of zeros. -/
theorem two_pass (x kk : Fin 256 → EReal) (hx : ∀ m, IsReal (x m)) (w : EReal) :
    ((∑ m : Fin 256, x m * kk m) + ∑ m : Fin 256, (x m - x m) * kk m) * w = w * ∑ m : Fin 256, x m * kk m := by
  have h0 : ∑ m : Fin 256, (x m - x m) * kk m = 0 :=
    Finset.sum_eq_zero fun m _ => by rw [(hx m).sub_self, zero_mul]
  rw [h0, add_zero, mul_comm]

/-- Taking `max lo` of a fold of `max` that starts at `lo` changes nothing: the fold is already above `lo`. -/
theorem max_fold_self {ι : Type} (t : Finset ι) (lo : EReal) (f : ι → EReal) :
    max lo (t.fold max lo f) = t.fold max lo f :=
  max_eq_right ((Finset.le_fold_max lo).mpr (Or.inl le_rfl))

end Cert.KeyScores

end
-- ==== Proof.RefScores.lean ====
/-
  The reference program's result, read stage by stage, is the function `attn`: its first matrix product is the
  projected query, its second the inner products with the keys, the broadcast product with the scaled norms gives the
  scores, and the remaining stages are the softmax of each row — a `max`-reduction along the row (read here by hand as
  a fold of `max` over the row's columns), a second `max` against the reduction's own starting value (which changes
  nothing), the exponential of the difference, the row sum from a zero start, and the quotient.
-/
import proofs.«105919_j61151744360780_2_alg».proof.Proof.Gen.ReferenceIdeal.Read
import proofs.«105919_j61151744360780_2_alg».proof.Proof.Softmax

noncomputable section

open scoped BigOperators
open Idealize.ShloMosaic Idealize.ShloMosaic.ValueIdx

namespace Cert.KeyScores.Ref

open Cert.ReferenceIdeal Cert.ReferenceIdeal.Gen Cert.ReferenceIdeal.Read Cert.KeyScores

variable (x0 : (⟨S2048x128, .f32⟩ : BufTy).Contents (Elt Ideal)) (x1 : (⟨S32768x256, .f32⟩ : BufTy).Contents (Elt Ideal))
  (x2 : (⟨S32768, .f32⟩ : BufTy).Contents (Elt Ideal)) (x3 : (⟨S256x128, .f32⟩ : BufTy).Contents (Elt Ideal))

/-- The scale both programs multiply the key norms by (one float literal, the same word in both). -/
abbrev scale : EReal := Ideal.ofBits .f32 0x3BA06C99#32
/-- The value both programs start their row maximum from (the word of minus infinity). -/
abbrev lo : EReal := Ideal.ofBits .f32 0xFF800000#32

/-- The first matrix product is the projected query. -/
theorem proj_eq (b : Fin 2048) (m : Fin 256) : val_main_v0 (F := Ideal) x0 x3 (ix2 b m) = proj x0 x3 b m := by
  rw [val_main_v0_apply]
  refine Finset.sum_congr rfl fun d _ => ?_
  have el : lidx_main_v0 (ix2 b m) d = ix2 b d := funext fun a => by match a with | ⟨0, _⟩ => rfl | ⟨1, _⟩ => rfl
  have er : ridx_main_v0 (ix2 b m) d = ix2 m d := funext fun a => by match a with | ⟨0, _⟩ => rfl | ⟨1, _⟩ => rfl
  rw [el, er]

/-- The product of the broadcast scaled norms with the second matrix product is the score. -/
theorem score_eq (b : Fin 2048) (j : Fin 32768) :
    val_main_v6 (F := Ideal) x0 x1 x2 x3 (ix2 b j) = score scale x0 x1 x2 x3 b j := by
  rw [val_main_v6_apply, val_main_v5_apply, val_main_v4_apply, val_main_v3_apply, val_main_v2_apply, val_main_cst_apply,
    val_main_v1_apply]
  have e4 : idx_main_v4 (idx_main_v5 (ix2 b j)) = ix1 j := funext fun a => by match a with | ⟨0, _⟩ => rfl
  rw [e4]
  have es : ∀ m : Fin 256, (val_main_v0 (F := Ideal) x0 x3) (lidx_main_v1 (ix2 b j) m) * x1 (ridx_main_v1 (ix2 b j) m)
      = proj x0 x3 b m * x1 (ix2 j m) := fun m => by
    have el : lidx_main_v1 (ix2 b j) m = ix2 b m := funext fun a => by match a with | ⟨0, _⟩ => rfl | ⟨1, _⟩ => rfl
    have er : ridx_main_v1 (ix2 b j) m = ix2 j m := funext fun a => by match a with | ⟨0, _⟩ => rfl | ⟨1, _⟩ => rfl
    rw [el, er, proj_eq]
  rw [Finset.sum_congr rfl fun m _ => es m]
  rfl

/-- The row maximum: the `max`-reduction along a row is the fold of `max` over the row's scores, and the further `max`
    against its own starting value changes nothing. -/
theorem rowmax_eq (b : Fin 2048) :
    val_main_v9 (F := Ideal) x0 x1 x2 x3 (ix1 b) = Finset.univ.fold max lo (score scale x0 x1 x2 x3 b) := by
  rw [val_main_v9_apply, val_main_v8_apply, val_main_cst_1_apply]
  unfold val_main_v7
  have hr : Host.reduce (FloatOps.maximumf (F := Ideal) (φ := .f32)) (val_main_v6 (F := Ideal) x0 x1 x2 x3) (val_main_cst_0 (F := Ideal))
      reducesTo_S2048x32768_S2048_d1 h_S_ (ix1 b) = Finset.univ.fold max lo (score scale x0 x1 x2 x3 b) := by
    refine (Host.reduce_eq_fold_single (FloatOps.maximumf (F := Ideal) (φ := .f32)) (val_main_v6 (F := Ideal) x0 x1 x2 x3)
      (val_main_cst_0 (F := Ideal)) reducesTo_S2048x32768_S2048_d1 (by decide : S2048x32768.Reduces [1] S2048) h_S_ (ix1 b)).trans ?_
    refine Finset.fold_congr fun k _ => ?_
    have e : (by decide : S2048x32768.Reduces [1] S2048).lift (ix1 b) k = ix2 b k :=
      funext fun a => Fin.ext (by match a with | ⟨0, _⟩ => rfl | ⟨1, _⟩ => rfl)
    show val_main_v6 (F := Ideal) x0 x1 x2 x3 ((by decide : S2048x32768.Reduces [1] S2048).lift (ix1 b) k) = _
    rw [e]
    exact score_eq x0 x1 x2 x3 b k
  exact (congrArg (max lo) hr).trans (max_fold_self _ _ _)

/-- The exponential stage at `(b, j)`: the exponential of the score less its row's maximum. -/
theorem exp_eq (b : Fin 2048) (j : Fin 32768) :
    val_main_v13 (F := Ideal) x0 x1 x2 x3 (ix2 b j)
      = Ideal.exp (score scale x0 x1 x2 x3 b j - Finset.univ.fold max lo (score scale x0 x1 x2 x3 b)) := by
  rw [val_main_v13_apply, val_main_v12_apply, val_main_v11_apply, val_main_v10_apply]
  have e : idx_main_v10 (idx_main_v11 (ix2 b j)) = ix1 b := funext fun a => by match a with | ⟨0, _⟩ => rfl
  rw [e, rowmax_eq, score_eq]
  rfl

/-- The row sum of the exponentials, from a zero start. -/
theorem rowsum_eq (b : Fin 2048) :
    val_main_v14 (F := Ideal) x0 x1 x2 x3 (ix1 b)
      = ∑ j : Fin 32768, Ideal.exp (score scale x0 x1 x2 x3 b j - Finset.univ.fold max lo (score scale x0 x1 x2 x3 b)) := by
  rw [val_main_v14_apply, val_main_cst_2_apply]
  have hz : FloatOps.ofBits (F := Ideal) .f32 0x00000000#32 = 0 := Ideal.ofBits_zero_f32
  rw [hz, zero_add]
  refine Finset.sum_congr rfl fun j _ => ?_
  have e : idx_main_v14 (ix1 b) j = ix2 b j := funext fun a => by match a with | ⟨0, _⟩ => rfl | ⟨1, _⟩ => rfl
  rw [e, exp_eq]

/-- THE REFERENCE'S RESULT is `attn` of its arguments. -/
theorem result_eq : val_main_v17 (F := Ideal) x0 x1 x2 x3 = attn scale lo x0 x1 x2 x3 := by
  funext i
  obtain ⟨b, j, rfl⟩ : ∃ (b : Fin 2048) (j : Fin 32768), i = ix2 b j := ⟨i 0, i 1, eq_ix2 i⟩
  rw [val_main_v17_apply, val_main_v16_apply, val_main_v15_apply]
  have e : idx_main_v15 (idx_main_v16 (ix2 b j)) = ix1 b := funext fun a => by match a with | ⟨0, _⟩ => rfl
  rw [e, rowsum_eq, exp_eq]
  rfl

end Cert.KeyScores.Ref

end
-- ==== Proof.Finite.lean ====
/-
  From the precondition to real entries.

  The precondition says of each float argument that every entry's absolute value is below plus infinity: per argument
  an all-entries conjunction of the comparisons `|x| < +∞`, the four conjoined. On extended reals `|x|` is
  `max x (−x)`, which is below `⊤` exactly when `x` is neither infinity. Needed here: the query's and the sketch's
  entries are real numbers (so that their projected products are, and a residual `p − p` is zero).
-/
import proofs.«105919_j61151744360780_2_alg».proof.Pre_finite_inputs
import proofs.«105919_j61151744360780_2_alg».proof.Proof.Gen.Pre_finite_inputs
import proofs.«105919_j61151744360780_2_alg».proof.Proof.Softmax
import Idealize.ShloMosaic.Lib.ReduceAll
import Idealize.ShloMosaic.Lib.ValueIdx
import Idealize.ShloMosaic.Lib.Pipeline.Value

noncomputable section

open Idealize.ShloMosaic Idealize.ShloMosaic.ValueIdx

namespace Cert.KeyScores.Finite

open Cert.Pre_finite_inputs Cert.Pre_finite_inputs.Gen Cert.KeyScores

/-- The scalar shape has one index. -/
instance : Subsingleton S_.Idx := ⟨fun a b => funext fun d => d.elim0⟩

/-- The word of plus infinity denotes `⊤`. -/
theorem inf_eq_top : Ideal.ofBits .f32 0x7F800000#32 = (⊤ : EReal) := by simp [Ideal.ofBits, Ideal.ieee]

/-- An entry whose comparison `|x| < +∞` came out true is a real number. -/
theorem isReal_of_lt_inf {x : EReal}
    (h : FloatOps.cmpf (F := Ideal) (φ := .f32) .olt (FloatOps.hostAbsf (F := Ideal) (φ := .f32) x) (Ideal.ofBits .f32 0x7F800000#32) = 1#1) :
    IsReal x := by
  rw [inf_eq_top] at h
  have hlt : max x (-x) < (⊤ : EReal) := by
    by_contra hn
    have h0 : FloatOps.cmpf (F := Ideal) (φ := .f32) .olt (FloatOps.hostAbsf (F := Ideal) (φ := .f32) x) (⊤ : EReal) = 0#1 := by
      show BitVec.ofBool (decide (max x (-x) < (⊤ : EReal))) = 0#1
      rw [decide_eq_false hn]
      rfl
    rw [h0] at h
    exact absurd h (by decide)
  exact isReal_of_abs_lt_top hlt

/-- THE PRECONDITION GIVES REAL ENTRIES of the first and of the last argument. -/
theorem real_of_pre (a0 : FVec Ideal S2048x128 .f32) (a1 : FVec Ideal S32768x256 .f32) (a2 : FVec Ideal S32768 .f32)
    (a3 : FVec Ideal S256x128 .f32) (h : fn (F := Ideal) a0 a1 a2 a3 = fun _ => 1#1) :
    (∀ i, IsReal (a0 i)) ∧ (∀ i, IsReal (a3 i)) := by
  have h0 := congrFun h ix0
  dsimp only [fn, fn_part1] at h0
  obtain ⟨h123, hs⟩ := IntOp.andi_eq_one.1 h0
  obtain ⟨h12, -⟩ := IntOp.andi_eq_one.1 h123
  obtain ⟨hq, -⟩ := IntOp.andi_eq_one.1 h12
  refine ⟨fun i => ?_, fun i => ?_⟩
  · have hi := Host.reduce_andi_all _ _ _ _ ix0 hq i
    refine isReal_of_lt_inf ?_
    refine Eq.trans ?_ hi
    show _ = FloatOps.cmpf .olt (FloatOps.hostAbsf (a0 i)) (broadcastInDim S2048x128 ![] bcast_S_S2048x128 (constant (F := Ideal) S_ .f32 0x7F800000#32) i)
    rw [broadcastInDim_apply _ bcast_S_S2048x128 _ i ix0 (fun a => a.elim0)]
    rfl
  · have hi := Host.reduce_andi_all _ _ _ _ ix0 hs i
    refine isReal_of_lt_inf ?_
    refine Eq.trans ?_ hi
    show _ = FloatOps.cmpf .olt (FloatOps.hostAbsf (a3 i)) (broadcastInDim S256x128 ![] bcast_S_S256x128 (constant (F := Ideal) S_ .f32 0x7F800000#32) i)
    rw [broadcastInDim_apply _ bcast_S_S256x128 _ i ix0 (fun a => a.elim0)]
    rfl

end Cert.KeyScores.Finite

end
-- ==== Proof.BlockBody.lean ====
/-
  The kernel body's arithmetic on one block, read at an index.

  The body takes a 64-row block `x0` of the projected query, all the keys `x1` and the row `x2` of scaled norms, and
  stores one 64 × 32768 block. Its value splits in two: the block of SCORES — a matrix product of `x0` with the keys
  plus a second matrix product of the residual `x0 − x0` with the keys, times the norms' row broadcast down the block —
  and the row-wise SOFTMAX of that block: the row maximum (a lane reduction by `max` from minus infinity, put back as a
  column and broadcast along the row), the exponential of the difference, the row sum (a lane reduction by `+`), and the
  quotient.

  Read at `(r, j)`: a matrix product into a zero accumulator is the sum over the 256 contracted coordinates of the
  products; on a real row of `x0` the residual product vanishes, so the score is `x2 (0, j) · ∑ m, x0 (r, m) · x1 (j, m)`;
  the softmax of the block at `(r, j)` is the softmax of row `r` at `j`.
-/
import proofs.«105919_j61151744360780_2_alg».proof.Proof.Gen.KernelIdeal.Skeleton
import proofs.«105919_j61151744360780_2_alg».proof.Proof.Softmax
import Idealize.ShloMosaic.Lib.ValueIdx
import Idealize.ShloMosaic.Lib.ValueLayout
import Idealize.ShloMosaic.Lib.Pipeline.Value
import Idealize.ShloMosaic.PureOps.Ideal.Laws

noncomputable section

open scoped BigOperators
open Idealize.ShloMosaic Idealize.ShloMosaic.ValueIdx

namespace Cert.KeyScores.Body

open Cert.KernelIdeal Cert.KernelIdeal.Gen Cert.KeyScores

/-- The value the row maximum starts from (the word of minus infinity). -/
abbrev lo : EReal := Ideal.ofBits .f32 0xFF800000#32

/-! ## The body's value in two parts -/

/-- The block of scores: the product of the block with the keys, plus the product of its residual with the keys, times
    the norms' row. -/
def blockScores (x0 : Vec Ideal S64x256 .f32) (x1 : Vec Ideal S32768x256 .bf16) (x2 : Vec Ideal S1x32768 .f32) :
    FVec Ideal S64x32768 .f32 :=
  mulf
    (addf
      (matmul dot_S64x256_S32768x256_S64x32768_1_1_0_0_n_n none
        (truncf .bf16 (shapeCast S64x256 x0 shapeCasts_S64x256_S64x256 : FVec Ideal S64x256 .f32) bitsLt_bf16_f32 : FVec Ideal S64x256 .bf16)
        (shapeCast S32768x256 x1 shapeCasts_S32768x256_S32768x256 : FVec Ideal S32768x256 .bf16)
        (constant S64x32768 .f32 0x00000000#32))
      (matmul dot_S64x256_S32768x256_S64x32768_1_1_0_0_n_n none
        (truncf .bf16 (subf (shapeCast S64x256 x0 shapeCasts_S64x256_S64x256 : FVec Ideal S64x256 .f32)
          (shapeCast S64x256 x0 shapeCasts_S64x256_S64x256 : FVec Ideal S64x256 .f32)) bitsLt_bf16_f32 : FVec Ideal S64x256 .bf16)
        (shapeCast S32768x256 x1 shapeCasts_S32768x256_S32768x256 : FVec Ideal S32768x256 .bf16)
        (constant S64x32768 .f32 0x00000000#32)))
    (broadcastTo S64x32768 (shapeCast S1x32768 x2 shapeCasts_S1x32768_S1x32768 : FVec Ideal S1x32768 .f32) broadcasts_S1x32768_S64x32768)

/-- A vector of 64 row values put back as a column and broadcast along the rows of the block. -/
def alongRows (u : FVec Ideal S64 .f32) : FVec Ideal S64x32768 .f32 :=
  broadcastTo S64x32768 (shapeCast S64x1 u shapeCasts_S64_S64x1) broadcasts_S64x1_S64x32768

/-- The exponentials of a block less its row maxima. -/
def blockExp (v : FVec Ideal S64x32768 .f32) : FVec Ideal S64x32768 .f32 :=
  exp (subf v (alongRows (multiReduction .maximumf [1] S64 v 0xFF800000#32 reduces_S64x32768_S64 (.inl rfl) rfl)))

/-- The row-wise softmax of a block. -/
def blockSoftmax (v : FVec Ideal S64x32768 .f32) : FVec Ideal S64x32768 .f32 :=
  divf (blockExp v) (alongRows (multiReduction .add [1] S64 (blockExp v) 0x00000000#32 reduces_S64x32768_S64 (.inl rfl) rfl))

/-- The body's stored value is the softmax of the block of scores. -/
theorem pay_eq (x0 : Vec Ideal S64x256 .f32) (x1 : Vec Ideal S32768x256 .bf16) (x2 : Vec Ideal S1x32768 .f32) :
    k0_pay1 (F := Ideal) x0 x1 x2 = blockSoftmax (blockScores x0 x1 x2) := rfl

/-! ## The matrix product at an index -/

theorem lhs_0 (i : S64x32768.Idx) (q : dot_S64x256_S32768x256_S64x32768_1_1_0_0_n_n.contr.Idx) :
    (dot_S64x256_S32768x256_S64x32768_1_1_0_0_n_n.lhsIdx i q 0).val = (i 0).val := by
  unfold DotDims.lhsIdx
  rw [dif_neg (show ¬(0 : Fin S64x256.rank) ∈ dot_S64x256_S32768x256_S64x32768_1_1_0_0_n_n.lhsBatch by decide),
    dif_pos (show (0 : Fin S64x256.rank) ∈ dot_S64x256_S32768x256_S64x32768_1_1_0_0_n_n.lhsNonContracting by decide)]
  rfl
theorem lhs_1 (i : S64x32768.Idx) (q : dot_S64x256_S32768x256_S64x32768_1_1_0_0_n_n.contr.Idx) :
    (dot_S64x256_S32768x256_S64x32768_1_1_0_0_n_n.lhsIdx i q 1).val = (q ⟨0, by decide⟩).val :=
  dot_S64x256_S32768x256_S64x32768_1_1_0_0_n_n.lhsIdx_val_of_single rfl i q
theorem rhs_0 (i : S64x32768.Idx) (q : dot_S64x256_S32768x256_S64x32768_1_1_0_0_n_n.contr.Idx) :
    (dot_S64x256_S32768x256_S64x32768_1_1_0_0_n_n.rhsIdx i q 0).val = (i 1).val := by
  unfold DotDims.rhsIdx
  rw [dif_neg (show ¬(0 : Fin S32768x256.rank) ∈ dot_S64x256_S32768x256_S64x32768_1_1_0_0_n_n.rhsBatch by decide),
    dif_pos (show (0 : Fin S32768x256.rank) ∈ dot_S64x256_S32768x256_S64x32768_1_1_0_0_n_n.rhsNonContracting by decide)]
  rfl
theorem rhs_1 (i : S64x32768.Idx) (q : dot_S64x256_S32768x256_S64x32768_1_1_0_0_n_n.contr.Idx) :
    (dot_S64x256_S32768x256_S64x32768_1_1_0_0_n_n.rhsIdx i q 1).val = (q ⟨0, by decide⟩).val :=
  dot_S64x256_S32768x256_S64x32768_1_1_0_0_n_n.rhsIdx_val_of_single rfl i q

/-- A block times the keys, into a zero accumulator, at `(r, j)`: the sum over the 256 contracted coordinates of row
    `r` of the block against key `j`. -/
theorem keysProduct_apply (a : FVec Ideal S64x256 .bf16) (k : FVec Ideal S32768x256 .bf16) (r : Fin 64) (j : Fin 32768) :
    matmul dot_S64x256_S32768x256_S64x32768_1_1_0_0_n_n none a k (constant S64x32768 .f32 0x00000000#32) (ix2 r j)
      = ∑ mm : Fin 256, a (ix2 r mm) * k (ix2 j mm) := by
  simp only [matmul]
  rw [Ideal.matmul_constant_zero_apply,
    ← Equiv.sum_comp (contrEquiv1 dot_S64x256_S32768x256_S64x32768_1_1_0_0_n_n 256 rfl rfl).symm]
  refine Finset.sum_congr rfl fun mm _ => ?_
  have hk := contrEquiv1_symm_val dot_S64x256_S32768x256_S64x32768_1_1_0_0_n_n 256 rfl rfl mm
  have el : dot_S64x256_S32768x256_S64x32768_1_1_0_0_n_n.lhsIdx (ix2 r j)
      ((contrEquiv1 dot_S64x256_S32768x256_S64x32768_1_1_0_0_n_n 256 rfl rfl).symm mm) = ix2 r mm :=
    funext fun ax => Fin.ext (by
      match ax with
      | ⟨0, _⟩ => exact lhs_0 _ _
      | ⟨1, _⟩ => exact (lhs_1 _ _).trans hk)
  have er : dot_S64x256_S32768x256_S64x32768_1_1_0_0_n_n.rhsIdx (ix2 r j)
      ((contrEquiv1 dot_S64x256_S32768x256_S64x32768_1_1_0_0_n_n 256 rfl rfl).symm mm) = ix2 j mm :=
    funext fun ax => Fin.ext (by
      match ax with
      | ⟨0, _⟩ => exact rhs_0 _ _
      | ⟨1, _⟩ => exact (rhs_1 _ _).trans hk)
  rw [el, er]

/-! ## The scores at an index -/

/-- The block of scores at `(r, j)`, when row `r` of the block is real: the norm of key `j` times the inner product of
    row `r` with key `j` (the residual product is a sum of zeros). -/
theorem blockScores_apply (x0 : Vec Ideal S64x256 .f32) (x1 : Vec Ideal S32768x256 .bf16) (x2 : Vec Ideal S1x32768 .f32)
    (r : Fin 64) (j : Fin 32768) (hx : ∀ mm : Fin 256, IsReal (x0 (ix2 r mm))) :
    blockScores x0 x1 x2 (ix2 r j) = x2 (ix2 (0 : Fin 1) j) * ∑ mm : Fin 256, x0 (ix2 r mm) * x1 (ix2 j mm) := by
  unfold blockScores
  rw [shapeCast_self, shapeCast_self, shapeCast_self, mulf_apply, addf_apply, keysProduct_apply, keysProduct_apply,
    broadcastTo_1b_ab_apply]
  exact two_pass (fun mm => x0 (ix2 r mm)) (fun mm => x1 (ix2 j mm)) hx _

/-! ## The softmax at an index -/

/-- A vector of row values, put back as a column and broadcast along the rows, reads its row's value everywhere. -/
theorem alongRows_apply (u : FVec Ideal S64 .f32) (r : Fin 64) (j : Fin 32768) : alongRows u (ix2 r j) = u (ix1 r) := by
  unfold alongRows
  refine (broadcastTo_apply _ broadcasts_S64x1_S64x32768 (ix2 r j) (ix2 r (0 : Fin 1)) fun ax => ?_).trans ?_
  · match ax with
    | ⟨0, _⟩ => show r.val = if (64 : Nat) = 1 then 0 else r.val; rw [if_neg (by decide)]
    | ⟨1, _⟩ => show 0 = if (1 : Nat) = 1 then 0 else j.val; rw [if_pos rfl]
  · refine shapeCast_apply u shapeCasts_S64_S64x1 (ix2 r (0 : Fin 1)) (ix1 r) ?_
    rw [Shape.rowMajor_val_two, Shape.rowMajor_val_one]
    show r.val = r.val * 1 + 0
    omega

/-- The lane reduction by `max` at row `r`: the fold of `max` from minus infinity over the row. -/
theorem rowMax_apply (v : FVec Ideal S64x32768 .f32) (r : Fin 64) :
    multiReduction .maximumf [1] S64 v 0xFF800000#32 reduces_S64x32768_S64 (.inl rfl) rfl (ix1 r)
      = Finset.univ.fold max lo (fun j' : Fin 32768 => v (ix2 r j')) := by
  refine (Ideal.multiReduction_maximumf_single v 0xFF800000#32 reduces_S64x32768_S64 (.inl rfl) rfl (ix1 r)).trans ?_
  refine Finset.fold_congr fun k _ => ?_
  exact congrArg v (funext fun ax => Fin.ext (by match ax with | ⟨0, _⟩ => rfl | ⟨1, _⟩ => rfl))

/-- The lane reduction by `+` at row `r`: the sum over the row. -/
theorem rowSum_apply (e : FVec Ideal S64x32768 .f32) (r : Fin 64) :
    multiReduction .add [1] S64 e 0x00000000#32 reduces_S64x32768_S64 (.inl rfl) rfl (ix1 r)
      = ∑ j' : Fin 32768, e (ix2 r j') := by
  refine (Ideal.multiReduction_add_single e 0x00000000#32 reduces_S64x32768_S64 (.inl rfl) rfl (ix1 r)).trans ?_
  refine Finset.sum_congr rfl fun k _ => ?_
  exact congrArg e (funext fun ax => Fin.ext (by match ax with | ⟨0, _⟩ => rfl | ⟨1, _⟩ => rfl))

/-- The exponential of a block less its row maxima, at `(r, j)`. -/
theorem blockExp_apply (v : FVec Ideal S64x32768 .f32) (r : Fin 64) (j : Fin 32768) :
    blockExp v (ix2 r j) = Ideal.exp (v (ix2 r j) - Finset.univ.fold max lo (fun j' : Fin 32768 => v (ix2 r j'))) := by
  unfold blockExp
  show Ideal.exp (v (ix2 r j) - alongRows _ (ix2 r j)) = _
  rw [alongRows_apply, rowMax_apply]

/-- THE SOFTMAX OF A BLOCK at `(r, j)` is the softmax of its row `r` at `j`. -/
theorem blockSoftmax_apply (v : FVec Ideal S64x32768 .f32) (r : Fin 64) (j : Fin 32768) :
    blockSoftmax v (ix2 r j) = rowSoftmax lo (fun j' : Fin 32768 => v (ix2 r j')) j := by
  unfold blockSoftmax
  rw [divf_apply, alongRows_apply, rowSum_apply, blockExp_apply]
  unfold rowSoftmax
  refine congrArg (Ideal.div _) (Finset.sum_congr rfl fun j' _ => ?_)
  exact blockExp_apply v r j'

end Cert.KeyScores.Body

end
-- ==== Proof.Staged.lean ====
/-
  What the kernel's region finds in the three arrays it stages, as functions of the program's arguments.

  Before the region the program computes, on the host: the projected query (a matrix product of the query with the
  sketch, contracting the 128 coordinates), the keys in a narrower float format (no change of value on extended reals),
  and the key norms times a scale, reshaped from a vector of 32768 to one row of 32768. Read at an index these are
  `proj q s b m`, `k (j, m)` and `n j · c`.
-/
import proofs.«105919_j61151744360780_2_alg».proof.Proof.Gen.KernelIdeal.Frame
import proofs.«105919_j61151744360780_2_alg».proof.Proof.Softmax
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

noncomputable section

open scoped BigOperators
open Idealize.ShloMosaic Idealize.ShloMosaic.ValueIdx Idealize.ShloMosaic.TcCoe Idealize.SL.Sem Idealize.ShloMosaic.StableHlo

namespace Cert.KeyScores.Staged

open Cert.KernelIdeal Cert.KernelIdeal.Gen Cert.KeyScores

variable (m : (ℓ : Loc nD τ sig) → Buf (Elt Ideal) ℓ)

/-- The scale the key norms are multiplied by (one float literal). -/
abbrev scale : EReal := Ideal.ofBits .f32 0x3BA06C99#32

/-! ## The host's matrix product at an index -/

theorem lhs_0 (i : S2048x256.Idx) (q : dot_S2048x128_S256x128_S2048x256_1_1_0_0_n_n.contr.Idx) :
    (dot_S2048x128_S256x128_S2048x256_1_1_0_0_n_n.lhsIdx i q 0).val = (i 0).val := by
  unfold DotDims.lhsIdx
  rw [dif_neg (show ¬(0 : Fin S2048x128.rank) ∈ dot_S2048x128_S256x128_S2048x256_1_1_0_0_n_n.lhsBatch by decide),
    dif_pos (show (0 : Fin S2048x128.rank) ∈ dot_S2048x128_S256x128_S2048x256_1_1_0_0_n_n.lhsNonContracting by decide)]
  rfl
theorem lhs_1 (i : S2048x256.Idx) (q : dot_S2048x128_S256x128_S2048x256_1_1_0_0_n_n.contr.Idx) :
    (dot_S2048x128_S256x128_S2048x256_1_1_0_0_n_n.lhsIdx i q 1).val = (q ⟨0, by decide⟩).val :=
  dot_S2048x128_S256x128_S2048x256_1_1_0_0_n_n.lhsIdx_val_of_single rfl i q
theorem rhs_0 (i : S2048x256.Idx) (q : dot_S2048x128_S256x128_S2048x256_1_1_0_0_n_n.contr.Idx) :
    (dot_S2048x128_S256x128_S2048x256_1_1_0_0_n_n.rhsIdx i q 0).val = (i 1).val := by
  unfold DotDims.rhsIdx
  rw [dif_neg (show ¬(0 : Fin S256x128.rank) ∈ dot_S2048x128_S256x128_S2048x256_1_1_0_0_n_n.rhsBatch by decide),
    dif_pos (show (0 : Fin S256x128.rank) ∈ dot_S2048x128_S256x128_S2048x256_1_1_0_0_n_n.rhsNonContracting by decide)]
  rfl
theorem rhs_1 (i : S2048x256.Idx) (q : dot_S2048x128_S256x128_S2048x256_1_1_0_0_n_n.contr.Idx) :
    (dot_S2048x128_S256x128_S2048x256_1_1_0_0_n_n.rhsIdx i q 1).val = (q ⟨0, by decide⟩).val :=
  dot_S2048x128_S256x128_S2048x256_1_1_0_0_n_n.rhsIdx_val_of_single rfl i q

/-- The query times the sketch at `(b, mm)` is the projected query there, whatever precision the product asks for. -/
theorem product_apply (x0 : FVec Ideal S2048x128 .f32) (x3 : FVec Ideal S256x128 .f32) (b : Fin 2048) (mm : Fin 256) :
    Host.dotGeneral (F := Ideal) dot_S2048x128_S256x128_S2048x256_1_1_0_0_n_n (some .fp32) x0 x3 (ix2 b mm) = proj x0 x3 b mm := by
  simp only [Host.dotGeneral]
  rw [Ideal.dotGeneral_apply, ← Equiv.sum_comp (contrEquiv1 dot_S2048x128_S256x128_S2048x256_1_1_0_0_n_n 128 rfl rfl).symm]
  unfold proj
  refine Finset.sum_congr rfl fun d _ => ?_
  have hk := contrEquiv1_symm_val dot_S2048x128_S256x128_S2048x256_1_1_0_0_n_n 128 rfl rfl d
  have el : dot_S2048x128_S256x128_S2048x256_1_1_0_0_n_n.lhsIdx (ix2 b mm)
      ((contrEquiv1 dot_S2048x128_S256x128_S2048x256_1_1_0_0_n_n 128 rfl rfl).symm d) = ix2 b d :=
    funext fun ax => Fin.ext (by
      match ax with
      | ⟨0, _⟩ => exact lhs_0 _ _
      | ⟨1, _⟩ => exact (lhs_1 _ _).trans hk)
  have er : dot_S2048x128_S256x128_S2048x256_1_1_0_0_n_n.rhsIdx (ix2 b mm)
      ((contrEquiv1 dot_S2048x128_S256x128_S2048x256_1_1_0_0_n_n 128 rfl rfl).symm d) = ix2 mm d :=
    funext fun ax => Fin.ext (by
      match ax with
      | ⟨0, _⟩ => exact rhs_0 _ _
      | ⟨1, _⟩ => exact (rhs_1 _ _).trans hk)
  rw [el, er]

/-! ## The arguments and the three staged arrays, as arrays of extended reals -/

/-- The query, the keys, the key norms and the sketch as launched on core `c`. -/
abbrev argQ (c : Dev nD) : FVec Ideal S2048x128 .f32 := m ((c : Thread nD τ).loc main_arg0)
abbrev argK (c : Dev nD) : FVec Ideal S32768x256 .f32 := m ((c : Thread nD τ).loc main_arg1)
abbrev argN (c : Dev nD) : FVec Ideal S32768 .f32 := m ((c : Thread nD τ).loc main_arg2)
abbrev argS (c : Dev nD) : FVec Ideal S256x128 .f32 := m ((c : Thread nD τ).loc main_arg3)

/-- What the region finds in the arrays of its three input windows. -/
abbrev stagedQ (c : Dev nD) : FVec Ideal S2048x256 .f32 := V m c main_call0_v0
abbrev stagedK (c : Dev nD) : FVec Ideal S32768x256 .bf16 := V m c main_call0_v1
abbrev stagedN (c : Dev nD) : FVec Ideal S1x32768 .f32 := V m c main_call0_v4

/-- The first window's array holds the projected query. -/
theorem query_apply (c : Dev nD) (b : Fin 2048) (mm : Fin 256) :
    stagedQ m c (ix2 b mm) = proj (argQ m c) (argS m c) b mm := by
  have e : stagedQ m c
      = Host.dotGeneral (F := Ideal) dot_S2048x128_S256x128_S2048x256_1_1_0_0_n_n (some .fp32) (argQ m c) (argS m c) := by
    dsimp only [stagedQ, argQ, argS, V, hostOps0]; after_results; rfl
  rw [e]
  exact product_apply _ _ b mm

/-- The second window's array holds the keys (the format change is the identity on extended reals). -/
theorem keys_apply (c : Dev nD) (i : S32768x256.Idx) : stagedK m c i = argK m c i := by
  have e : stagedK m c = truncf .bf16 (argK m c) bitsLt_bf16_f32 := by
    dsimp only [stagedK, argK, V, hostOps0]; after_results; rfl
  rw [e]
  rfl

/-- The third window's array holds, in its one row, the key norms times the scale. -/
theorem norms_apply (c : Dev nD) (j : Fin 32768) : stagedN m c (ix2 (0 : Fin 1) j) = argN m c (ix1 j) * scale := by
  have e : stagedN m c
      = shapeCast S1x32768 (mulf (argN m c) (broadcastInDim S32768 ![] bcast_S_S32768 (constant (F := Ideal) S_ .f32 0x3BA06C99#32)))
          shapeCasts_S32768_S1x32768 := by
    dsimp only [stagedN, argN, V, hostOps0]; after_results; rfl
  rw [e, shapeCast_a_1a_apply, mulf_apply]
  refine congrArg (_ * ·) ?_
  exact broadcastInDim_apply _ bcast_S_S32768 _ (ix1 j) ix0 (fun a => a.elim0)

end Cert.KeyScores.Staged

end
-- ==== Proof.Whole.lean ====
/-
  From blocks to the whole array.

  The grid has 32 points. At point `t` the kernel stages rows `64 t … 64 t + 63` of the projected query, all the keys
  and the one row of scaled norms, and writes back rows `64 t … 64 t + 63` of the result. The softmax of a row of scores
  depends on that row alone, so what point `t` writes back is exactly block `t` of the whole-array function `attn` of
  the program's arguments — provided the staged projected query is real, which it is when the query and the sketch
  are. The 32 blocks cover the result array (row `b` lies in block `b / 64`), so after the run the array IS `attn`.
-/
import proofs.«105919_j61151744360780_2_alg».proof.Proof.Gen.KernelIdeal.Value
import proofs.«105919_j61151744360780_2_alg».proof.Proof.BlockBody
import proofs.«105919_j61151744360780_2_alg».proof.Proof.Staged
import Idealize.ShloMosaic.Lib.Pipeline.Value

noncomputable section

open scoped BigOperators
open Idealize.ShloMosaic Idealize.ShloMosaic.ValueIdx Idealize.ShloMosaic.TcCoe Idealize.SL.Sem
open Idealize.ShloMosaic.Pipeline (Dat)

namespace Cert.KeyScores.Whole

open Cert.KernelIdeal Cert.KernelIdeal.Gen Cert.KernelIdeal.Value Cert.KeyScores Cert.KeyScores.Body Cert.KeyScores.Staged

variable (m : (ℓ : Loc nD τ sig) → Buf (Elt Ideal) ℓ) (ρ : Dev nD → PrngReg)

theorem hz : (![0, 0] : Fin 2 → Nat) = fun _ => 0 := funext fun a => by fin_cases a <;> rfl

/-- The four index maps over the grid: the projected query's and the result's blocks move down with the point, the
    keys' and the norms' stay. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem point_lt (t : Fin cfg0.N) : t.val < 32 := lt_of_lt_of_eq t.isLt N_0

/-- The array row that row `r` of point `t`'s block is. -/
def row (t : Fin cfg0.N) (r : Fin 64) : Fin 2048 := ⟨t.val * 64 + r.val, by have := point_lt t; have := r.isLt; omega⟩

/-! ## The input blocks at a point -/

/-- Row `r` of the projected query's block at point `t` is row `64 t + r` of the staged array. -/
theorem queryBlock_apply (c : Dev nD) (t : Fin cfg0.N) (r : Fin 64) (mm : Fin 256) :
    iblk m c 0 t (ix2 r mm) = stagedQ m c (ix2 (row t r) mm) := by
  obtain ⟨e0, e1, -⟩ := idx_facts t
  have h : ((cfg0.win 0).blk t).view.emb (ix2 r mm) = ix2 (row t r) mm := by
    funext a; apply Fin.ext
    match a with
    | ⟨0, _⟩ => show win0_0.index t (0 : Fin 2) * 64 + 1 * r.val = t.val * 64 + r.val; rw [e0]; omega
    | ⟨1, _⟩ => show win0_0.index t (1 : Fin 2) * 256 + 1 * mm.val = mm.val; rw [e1]; omega
  show V m c main_call0_v0 (((cfg0.win 0).blk t).view.emb (ix2 r mm)) = V m c main_call0_v0 (ix2 (row t r) mm)
  rw [h]

/-- The keys' block at every point is the whole staged array. -/
theorem keysBlock_apply (c : Dev nD) (t : Fin cfg0.N) (j : Fin 32768) (mm : Fin 256) :
    iblk m c 1 t (ix2 j mm) = stagedK m c (ix2 j mm) := by
  obtain ⟨-, -, e0, e1, -⟩ := idx_facts t
  have h : ((cfg0.win 1).blk t).view.emb (ix2 j mm) = ix2 j mm := by
    funext a; apply Fin.ext
    match a with
    | ⟨0, _⟩ => show win0_1.index t (0 : Fin 2) * 32768 + 1 * j.val = j.val; rw [e0]; omega
    | ⟨1, _⟩ => show win0_1.index t (1 : Fin 2) * 256 + 1 * mm.val = mm.val; rw [e1]; omega
  show V m c main_call0_v1 (((cfg0.win 1).blk t).view.emb (ix2 j mm)) = V m c main_call0_v1 (ix2 j mm)
  rw [h]

/-- The norms' block at every point is the whole staged row. -/
theorem normsBlock_apply (c : Dev nD) (t : Fin cfg0.N) (j : Fin 32768) :
    iblk m c 2 t (ix2 (0 : Fin 1) j) = stagedN m c (ix2 (0 : Fin 1) j) := by
  obtain ⟨-, -, -, -, e0, e1, -⟩ := idx_facts t
  have h : ((cfg0.win 2).blk t).view.emb (ix2 (0 : Fin 1) j) = ix2 (0 : Fin 1) j := by
    funext a; apply Fin.ext
    match a with
    | ⟨0, _⟩ => show win0_2.index t (0 : Fin 2) * 1 + 1 * 0 = 0; rw [e0]
    | ⟨1, _⟩ => show win0_2.index t (1 : Fin 2) * 32768 + 1 * j.val = j.val; rw [e1]; omega
  show V m c main_call0_v4 (((cfg0.win 2).blk t).view.emb (ix2 (0 : Fin 1) j)) = V m c main_call0_v4 (ix2 (0 : Fin 1) j)
  rw [h]

/-! ## What a point writes back -/

/-- The score the body computes at `(r, j)` of point `t`'s block is the score of array row `64 t + r` against key `j`. -/
theorem blockScore_eq (c : Dev nD) (t : Fin cfg0.N) (hq : ∀ i, IsReal (argQ m c i)) (hs : ∀ i, IsReal (argS m c i))
    (r : Fin 64) (j : Fin 32768) :
    blockScores (iblk m c 0 t) (iblk m c 1 t) (iblk m c 2 t) (ix2 r j)
      = score scale (argQ m c) (argK m c) (argN m c) (argS m c) (row t r) j := by
  have hreal : ∀ mm : Fin 256, IsReal (iblk m c 0 t (ix2 r mm)) := fun mm => by
    rw [queryBlock_apply, query_apply]; exact proj_isReal _ _ hq hs _ _
  refine (blockScores_apply (iblk m c 0 t) (iblk m c 1 t) (iblk m c 2 t) r j hreal).trans ?_
  rw [normsBlock_apply, norms_apply]
  unfold score
  rw [mul_comm (argN m c (ix1 j)) scale]
  refine congrArg (_ * ·) (Finset.sum_congr rfl fun mm _ => ?_)
  rw [queryBlock_apply, query_apply, keysBlock_apply, keys_apply]

/-- WHAT POINT `t` WRITES BACK is block `t` of `attn` of the arguments. -/
theorem flushed_eq (c : Dev nD) (t : Fin cfg0.N) (hq : ∀ i, IsReal (argQ m c i)) (hs : ∀ i, IsReal (argS m c i)) :
    (dats m 0 c).flushed 3 t
      = ((cfg0.win 3).blk t).view.read (Elt Ideal) (attn scale lo (argQ m c) (argK m c) (argN m c) (argS m c)) := by
  rw [flushed3]
  unfold out0_3
  rw [View.canon_unit_zero hz]
  simp only [View.ld_unit_zero (S := S64x256) hz, View.ld_unit_zero (S := S32768x256) hz, View.ld_unit_zero (S := S1x32768) hz]
  rw [pay_eq (iblk m c 0 t) (iblk m c 1 t) (iblk m c 2 t)]
  obtain ⟨-, -, -, -, -, -, e0, e1⟩ := idx_facts t
  have hcut : ∀ (X : Vec Ideal S64x32768 .f32) (y : S64x32768.Idx), (cfg0.win 3).cut (grid0.coords t) X y = X y :=
    fun _ _ => rfl
  have hread : ∀ (G : S2048x32768.Idx → EReal) (y : S64x32768.Idx),
      ((cfg0.win 3).blk t).view.read (Elt Ideal) G y = G (((cfg0.win 3).blk t).view.emb y) := fun _ _ => rfl
  funext y
  obtain ⟨r, j, rfl⟩ : ∃ (r : Fin 64) (j : Fin 32768), y = ix2 r j := ⟨y 0, y 1, eq_ix2 y⟩
  have h : ((cfg0.win 3).blk t).view.emb (ix2 r j) = ix2 (row t r) j := by
    funext a; apply Fin.ext
    match a with
    | ⟨0, _⟩ => show win0_3.index t (0 : Fin 2) * 64 + 1 * r.val = t.val * 64 + r.val; rw [e0]; omega
    | ⟨1, _⟩ => show win0_3.index t (1 : Fin 2) * 32768 + 1 * j.val = j.val; rw [e1]; omega
  refine (hcut _ (ix2 r j)).trans (Eq.trans ?_ (hread _ (ix2 r j)).symm)
  rw [h, blockSoftmax_apply]
  unfold attn
  refine congrArg (fun f => rowSoftmax lo f j) (funext fun j' => ?_)
  exact blockScore_eq m c t hq hs r j'

/-! ## The cover, and the array after the run -/

/-- An index of the result is in point `t`'s block iff each coordinate is in the block's range on its axis. -/
theorem mem_blk (t : Fin cfg0.N) (i : S2048x32768.Idx) :
    i ∈ ((cfg0.win 3).blk t).view.set ↔ ∀ a : Fin 2, win0_3.index t a * S64x32768.size a ≤ (i a).val
      ∧ (i a).val < win0_3.index t a * S64x32768.size a + S64x32768.size a := by
  show i ∈ ((View.whole main_v0).slice (win0_3.rect t)).set ↔ _
  rw [View.set_slice_whole, Rect.mem_set_unit]
  exact Iff.rfl

/-- Every index of the result lies in the block of the point its row divided by 64 names. -/
theorem cover (i : S2048x32768.Idx) :
    ∃ t : Fin cfg0.N, (cfg0.win 3).flush t = true ∧ i ∈ ((cfg0.win 3).blk t).view.set := by
  have hi0 : (i 0).val < 2048 := idx2_lt0 i
  have hi1 : (i 1).val < 32768 := idx2_lt1 i
  have hN : cfg0.N = 32 := N_0
  obtain ⟨t, ht⟩ : ∃ t : Fin cfg0.N, t.val = (i 0).val / 64 := ⟨⟨(i 0).val / 64, by rw [hN]; omega⟩, rfl⟩
  obtain ⟨-, -, -, -, -, -, e0, e1⟩ := idx_facts t
  refine ⟨t, flush0_3 t, ?_⟩
  rw [mem_blk]
  intro a
  match a with
  | ⟨0, _⟩ =>
    show win0_3.index t (0 : Fin 2) * 64 ≤ (i 0).val ∧ (i 0).val < win0_3.index t (0 : Fin 2) * 64 + 64
    rw [e0, ht]; omega
  | ⟨1, _⟩ =>
    show win0_3.index t (1 : Fin 2) * 32768 ≤ (i 1).val ∧ (i 1).val < win0_3.index t (1 : Fin 2) * 32768 + 32768
    rw [e1]; omega

/-- THE RESULT ARRAY after the run is `attn` of the arguments. -/
theorem final (c : Dev nD) (hq : ∀ i, IsReal (argQ m c i)) (hs : ∀ i, IsReal (argS m c i)) :
    (dats m 0 c).arrAt 3 cfg0.N = attn scale lo (argQ m c) (argK m c) (argN m c) (argS m c) :=
  (dats m 0 c).arrAt_eq_of_cover 3 _ (fun t _ => flushed_eq m c t hq hs) cover

/-- The kernel's run, read: the result at `attn` of the arguments, the arguments unchanged — when the query's and the
    sketch's entries are real on every core. -/
theorem run (hreal : ∀ c : Dev nD, (∀ i, IsReal (argQ m c i)) ∧ (∀ i, IsReal (argS m c i))) :
    θ_run defs (onTc (τ := τ) (main (F := Ideal))) ⟨m, fun _ => 0, ρ⟩ fun r => ∀ c : Dev nD,
      r.2.mem ((c : Thread nD τ).loc main_v0) = attn scale lo (argQ m c) (argK m c) (argN m c) (argS m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c (hreal c).1 (hreal c).2), (h c).2⟩) (run_blocks m ρ)

end Cert.KeyScores.Whole

end
-- ==== Proof.lean ====
/-
  A kernel that scores every query row against a cache of 32768 sign-quantized keys and returns the softmax of each
  row of scores, against a plain reference for the same.

  Both programs project the query through the sketch matrix (`p b m = ∑ d, q b d · s m d`), take inner products of the
  projected query with the keys, scale each by the key's norm times a fixed constant (the same float literal in both),
  and take the softmax along each row: exponentials of the scores less the row maximum, over their row sum.

  They differ in three places, none of which changes the value on extended reals when the inputs are real numbers:
  - the kernel works on 64 rows at a time; a row's softmax depends on that row alone, and the 32 blocks cover the result;
  - the kernel splits the projected query into a narrow-format part and the narrow-format residual of the difference and
    adds the two products with the keys. With exact arithmetic the narrow-format part is the projected query itself and
    the residual is `p − p`, which is zero when `p` is a real number — here the precondition is used: the query and the
    sketch are finite, so every `p b m` is a finite sum of products of real numbers;
  - the reference takes one more `max` of the row maximum against minus infinity, where the row maximum was already
    folded from minus infinity; and it orders two products the other way round (commutativity of `·`).

  `attn` (Proof/Softmax.lean) is the common function. The reference's run ends at it (Proof/RefScores.lean over the
  generated run and read lemmas); the kernel's run ends at it (Proof/Whole.lean, over the generated blockwise value
  leg, the body's arithmetic read at an index in Proof/BlockBody.lean, the staged arrays in Proof/Staged.lean and the
  real entries from the precondition in Proof/Finite.lean).
-/
import proofs.«105919_j61151744360780_2_alg».proof.Defs
import proofs.«105919_j61151744360780_2_alg».proof.Proof.Gen.Kernel
import proofs.«105919_j61151744360780_2_alg».proof.Proof.Gen.Kernel.Skeleton
import proofs.«105919_j61151744360780_2_alg».proof.Proof.Gen.Kernel.Launch
import proofs.«105919_j61151744360780_2_alg».proof.Proof.Gen.Kernel.Points
import proofs.«105919_j61151744360780_2_alg».proof.Proof.Gen.Kernel.Frame
import proofs.«105919_j61151744360780_2_alg».proof.Proof.Gen.KernelIdeal
import proofs.«105919_j61151744360780_2_alg».proof.Proof.Gen.KernelIdeal.Skeleton
import proofs.«105919_j61151744360780_2_alg».proof.Proof.Gen.KernelIdeal.Launch
import proofs.«105919_j61151744360780_2_alg».proof.Proof.Gen.KernelIdeal.Points
import proofs.«105919_j61151744360780_2_alg».proof.Proof.Gen.KernelIdeal.Frame
import proofs.«105919_j61151744360780_2_alg».proof.Proof.Gen.ReferenceIdeal
import proofs.«105919_j61151744360780_2_alg».proof.Proof.Gen.Pre_finite_inputs
import proofs.«105919_j61151744360780_2_alg».proof.Proof.Gen.KernelIdeal.Value
import proofs.«105919_j61151744360780_2_alg».proof.Proof.Gen.ReferenceIdeal.Run
import proofs.«105919_j61151744360780_2_alg».proof.Proof.Gen.ReferenceIdeal.Read
import proofs.«105919_j61151744360780_2_alg».proof.Proof.Softmax
import proofs.«105919_j61151744360780_2_alg».proof.Proof.RefScores
import proofs.«105919_j61151744360780_2_alg».proof.Proof.Finite
import proofs.«105919_j61151744360780_2_alg».proof.Proof.Whole
import Idealize.ShloMosaic.Adequacy
import Idealize.ShloMosaic.Init

noncomputable section

namespace Cert.Proof

open Idealize.ShloMosaic Idealize.ShloMosaic.TcCoe Idealize.SL.Sem
open Cert.KeyScores Cert.KeyScores.Staged

/-- The word-level kernel runs and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the reference: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The one rewrite of the idealization: widening back what was just narrowed is the identity on extended reals. -/
theorem preserves : Cert.preserves_Kernel_KernelIdeal := IdealRules.truncf_extf.statement _ .f32 .bf16

/-- Both runs end with the result array at `attn` of the (agreeing) arguments. -/
theorem algebraic : Cert.algebraic_KernelIdeal_ReferenceIdeal := by
  intro m ρ m' ρ' hpre hagree
  have hreal : ∀ c : Dev Cert.KernelIdeal.nD, (∀ i, IsReal (argQ m c i)) ∧ (∀ i, IsReal (argS m c i)) :=
    fun c => Cert.KeyScores.Finite.real_of_pre _ _ _ _ (hpre c)
  refine ⟨fun c => attn scale Cert.KeyScores.Body.lo (argQ m c) (argK m c) (argN m c) (argS m c),
    Cert.KeyScores.Whole.run m ρ hreal, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.KeyScores.Ref.result_eq, (hagree c).1, (hagree c).2.1,
    (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
